-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x16x16 : Shape := ⟨4, ![8, 32, 16, 16]⟩
abbrev S4096 : Shape := ⟨1, ![4096]⟩
abbrev S16 : Shape := ⟨1, ![16]⟩
abbrev S_ : Shape := ⟨0, ![]⟩

class Facts : Prop where
  bcast_S_S8x32x16x16 : S_.BroadcastsInDim S8x32x16x16 (![] : Fin 0 → Fin S8x32x16x16.rank)
  reducesTo_S8x32x16x16_S_d0_1_2_3 : S8x32x16x16.ReducesTo [0, 1, 2, 3] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x32x16x16 .f32) (main_arg1 : FVec F S4096 .f32) (main_arg2 : IVec S16 32) : IVec S_ 1 :=
  let main_v0 : FVec F S8x32x16x16 .f32 := Host.absf main_arg0
  let main_cst : FVec F S_ .f32 := constant S_ .f32 0x7F800000#32
  let main_v1 : FVec F S8x32x16x16 .f32 := broadcastInDim S8x32x16x16 ![] bcast_S_S8x32x16x16 main_cst
  let main_v2 : IVec S8x32x16x16 1 := cmpf .olt main_v0 main_v1
  let main_c : IVec S_ 1 := constantI S_ 1 1#1
  let main_v3 : IVec S_ 1 := (fun x v => Host.reduce IntOp.andi x v reducesTo_S8x32x16x16_S_d0_1_2_3 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8x32x16x16 : Shape := ⟨4, ![8, 32, 16, 16]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S32x4096x16x16 : Shape := ⟨4, ![32, 4096, 16, 16]⟩
abbrev S8x1x16x16 : Shape := ⟨4, ![8, 1, 16, 16]⟩
abbrev S512x16 : Shape := ⟨2, ![512, 16]⟩
abbrev S1x512x16x16 : Shape := ⟨4, ![1, 512, 16, 16]⟩
abbrev S1x1x16x16 : Shape := ⟨4, ![1, 1, 16, 16]⟩
abbrev S16x16 : Shape := ⟨2, ![16, 16]⟩
abbrev S512x16x1 : Shape := ⟨3, ![512, 16, 1]⟩
abbrev S1x16x16 : Shape := ⟨3, ![1, 16, 16]⟩
abbrev S512x16x16 : Shape := ⟨3, ![512, 16, 16]⟩
abbrev S512x1x16 : Shape := ⟨3, ![512, 1, 16]⟩
abbrev S8192x16 : Shape := ⟨2, ![8192, 16]⟩

abbrev nBuf : Space → Nat
  | .hbm => 12
  | .vmem => 6
  | .smem => 0
  | _ => 0

abbrev bufTy : (tb : Table) → Fin (tcTables nBuf tb) → BufTy
  | .hbm, ⟨0, _⟩ => ⟨S8x32x16x16, .f32⟩
  | .hbm, ⟨1, _⟩ => ⟨S4096, .f32⟩
  | .hbm, ⟨2, _⟩ => ⟨S16, .i32⟩
  | .hbm, ⟨3, _⟩ => ⟨S4096x1, .f32⟩
  | .hbm, ⟨4, _⟩ => ⟨S16, .i32⟩
  | .hbm, ⟨5, _⟩ => ⟨S1x16, .i32⟩
  | .hbm, ⟨6, _⟩ => ⟨S1x16, .f32⟩
  | .hbm, ⟨7, _⟩ => ⟨S1x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S32x4096x16x16, .f32⟩
  | .local _ .vmem, ⟨0, _⟩ => ⟨S8x1x16x16, .f32⟩
  | .local _ .vmem, ⟨1, _⟩ => ⟨S8x1x16x16, .f32⟩
  | .local _ .vmem, ⟨2, _⟩ => ⟨S512x16, .f32⟩
  | .local _ .vmem, ⟨3, _⟩ => ⟨S512x16, .f32⟩
  | .local _ .vmem, ⟨4, _⟩ => ⟨S1x512x16x16, .f32⟩
  | .local _ .vmem, ⟨5, _⟩ => ⟨S1x512x16x16, .f32⟩
  | _, _ => ⟨S8x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x1x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S4096_S4096x1_0 : S4096.BroadcastsInDim S4096x1 (![0] : Fin 1 → Fin S4096x1.rank)
  bcast_S16_S1x16_1 : S16.BroadcastsInDim S1x16 (![1] : Fin 1 → Fin S1x16.rank)
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S8x1x16x16_S1x1x16x16_0_0_0_0 : ∀ a, (![0, 0, 0, 0] : Fin 4 → Nat) a + S1x1x16x16.size a ≤ S8x1x16x16.size a
  h_S1x1x16x16 : 0 < S1x1x16x16.numel
  shapeCasts_S1x1x16x16_S16x16 : S1x1x16x16.ShapeCasts S16x16
  shapeCasts_S512x16_S512x16x1 : S512x16.ShapeCasts S512x16x1
  shapeCasts_S16x16_S1x16x16 : S16x16.ShapeCasts S1x16x16
  broadcasts_S512x16x1_S512x16x16 : S512x16x1.Broadcasts S512x16x16
  broadcasts_S1x16x16_S512x16x16 : S1x16x16.Broadcasts S512x16x16
  inb_S8x1x16x16_S1x1x16x16_1_0_0_0 : ∀ a, (![1, 0, 0, 0] : Fin 4 → Nat) a + S1x1x16x16.size a ≤ S8x1x16x16.size a
  shapeCasts_S512x16_S512x1x16 : S512x16.ShapeCasts S512x1x16
  broadcasts_S512x1x16_S512x16x16 : S512x1x16.Broadcasts S512x16x16
  shapeCasts_S512x16x16_S8192x16 : S512x16x16.ShapeCasts S8192x16
  shapeCasts_S8192x16_S512x16x16 : S8192x16.ShapeCasts S512x16x16
  inb_S8x1x16x16_S1x1x16x16_2_0_0_0 : ∀ a, (![2, 0, 0, 0] : Fin 4 → Nat) a + S1x1x16x16.size a ≤ S8x1x16x16.size a
  inb_S8x1x16x16_S1x1x16x16_3_0_0_0 : ∀ a, (![3, 0, 0, 0] : Fin 4 → Nat) a + S1x1x16x16.size a ≤ S8x1x16x16.size a
  inb_S8x1x16x16_S1x1x16x16_4_0_0_0 : ∀ a, (![4, 0, 0, 0] : Fin 4 → Nat) a + S1x1x16x16.size a ≤ S8x1x16x16.size a
  inb_S8x1x16x16_S1x1x16x16_5_0_0_0 : ∀ a, (![5, 0, 0, 0] : Fin 4 → Nat) a + S1x1x16x16.size a ≤ S8x1x16x16.size a
  inb_S8x1x16x16_S1x1x16x16_6_0_0_0 : ∀ a, (![6, 0, 0, 0] : Fin 4 → Nat) a + S1x1x16x16.size a ≤ S8x1x16x16.size a
  inb_S8x1x16x16_S1x1x16x16_7_0_0_0 : ∀ a, (![7, 0, 0, 0] : Fin 4 → Nat) a + S1x1x16x16.size a ≤ S8x1x16x16.size a
  inb_S1x512x16x16_S1x512x16x16_0_0_0_0 : ∀ a, (![0, 0, 0, 0] : Fin 4 → Nat) a + S1x512x16x16.size a ≤ S1x512x16x16.size a
  h_S1x512x16x16 : 0 < S1x512x16x16.numel
  shapeCasts_S1x512x16x16_S512x16x16 : S1x512x16x16.ShapeCasts S512x16x16
  shapeCasts_S512x16x16_S1x512x16x16 : S512x16x16.ShapeCasts S1x512x16x16
  dot_S8192x16_S16x16_S8192x16_1_0_0_1_n_n_wf : DotDims.WF S8192x16 S16x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x16x16.size a ≤ S8x32x16x16.size a
  hwx0_0 : ∀ i : grid0.Coords, EltTy.bits .f32 = 32 ∨ (Rect.block (s := S8x32x16x16) S8x1x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x16x16.size a ≤ S32x4096x16x16.size a
  hwx0_2 : ∀ i : grid0.Coords, EltTy.bits .f32 = 32 ∨ (Rect.block (s := S32x4096x16x16) S1x512x16x16.size (cc0_transform_2 i) (hinb0_2 i)).WholeWords (EltTy.packing .f32)

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

abbrev win0_0 : Pipeline.Window sig grid0 :=
  Pipeline.Window.ofSpec (Memref.whole main_arg0) S8x1x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x16x16 : Shape := ⟨4, ![8, 32, 16, 16]⟩
abbrev S4096 : Shape := ⟨1, ![4096]⟩
abbrev S16 : Shape := ⟨1, ![16]⟩
abbrev S1x4096x1 : Shape := ⟨3, ![1, 4096, 1]⟩
abbrev S1x1x16 : Shape := ⟨3, ![1, 1, 16]⟩
abbrev S1x4096x16 : Shape := ⟨3, ![1, 4096, 16]⟩
abbrev S1x32x16x16 : Shape := ⟨4, ![1, 32, 16, 16]⟩
abbrev S32x16x16 : Shape := ⟨3, ![32, 16, 16]⟩
abbrev S1x4096x16x1 : Shape := ⟨4, ![1, 4096, 16, 1]⟩
abbrev S32x1x16x16 : Shape := ⟨4, ![32, 1, 16, 16]⟩
abbrev S32x4096x16x16 : Shape := ⟨4, ![32, 4096, 16, 16]⟩

abbrev nBuf : Space → Nat
  | .hbm => 74
  | .vmem => 0
  | .smem => 0
  | _ => 0

abbrev bufTy : (tb : Table) → Fin (tcTables nBuf tb) → BufTy
  | .hbm, ⟨0, _⟩ => ⟨S8x32x16x16, .f32⟩
  | .hbm, ⟨1, _⟩ => ⟨S4096, .f32⟩
  | .hbm, ⟨2, _⟩ => ⟨S16, .i32⟩
  | .hbm, ⟨3, _⟩ => ⟨S1x4096x1, .f32⟩
  | .hbm, ⟨4, _⟩ => ⟨S16, .i32⟩
  | .hbm, ⟨5, _⟩ => ⟨S1x1x16, .i32⟩
  | .hbm, ⟨6, _⟩ => ⟨S1x1x16, .f32⟩
  | .hbm, ⟨7, _⟩ => ⟨S1x1x16, .f32⟩
  | .hbm, ⟨8, _⟩ => ⟨S1x4096x16, .f32⟩
  | .hbm, ⟨9, _⟩ => ⟨S1x4096x16, .f32⟩
  | .hbm, ⟨10, _⟩ => ⟨S1x4096x16, .f32⟩
  | .hbm, ⟨11, _⟩ => ⟨S1x32x16x16, .f32⟩
  | .hbm, ⟨12, _⟩ => ⟨S32x16x16, .f32⟩
  | .hbm, ⟨13, _⟩ => ⟨S1x4096x16x1, .f32⟩
  | .hbm, ⟨14, _⟩ => ⟨S32x1x16x16, .f32⟩
  | .hbm, ⟨15, _⟩ => ⟨S32x4096x16x16, .f32⟩
  | .hbm, ⟨16, _⟩ => ⟨S32x4096x16x16, .f32⟩
  | .hbm, ⟨17, _⟩ => ⟨S32x4096x16x16, .f32⟩
  | .hbm, ⟨18, _⟩ => ⟨S1x32x16x16, .f32⟩
  | .hbm, ⟨19, _⟩ => ⟨S32x16x16, .f32⟩
  | .hbm, ⟨20, _⟩ => ⟨S1x4096x16x1, .f32⟩
  | .hbm, ⟨21, _⟩ => ⟨S32x1x16x16, .f32⟩
  | .hbm, ⟨22, _⟩ => ⟨S32x4096x16x16, .f32⟩
  | .hbm, ⟨23, _⟩ => ⟨S32x4096x16x16, .f32⟩
  | .hbm, ⟨24, _⟩ => ⟨S32x4096x16x16, .f32⟩
  | .hbm, ⟨25, _⟩ => ⟨S32x4096x16x16, .f32⟩
  | .hbm, ⟨26, _⟩ => ⟨S1x32x16x16, .f32⟩
  | .hbm, ⟨27, _⟩ => ⟨S32x16x16, .f32⟩
  | .hbm, ⟨28, _⟩ => ⟨S1x4096x16x1, .f32⟩
  | .hbm, ⟨29, _⟩ => ⟨S32x1x16x16, .f32⟩
  | .hbm, ⟨30, _⟩ => ⟨S32x4096x16x16, .f32⟩
  | .hbm, ⟨31, _⟩ => ⟨S32x4096x16x16, .f32⟩
  | .hbm, ⟨32, _⟩ => ⟨S32x4096x16x16, .f32⟩
  | .hbm, ⟨33, _⟩ => ⟨S32x4096x16x16, .f32⟩
  | .hbm, ⟨34, _⟩ => ⟨S1x32x16x16, .f32⟩
  | .hbm, ⟨35, _⟩ => ⟨S32x16x16, .f32⟩
  | .hbm, ⟨36, _⟩ => ⟨S1x4096x16x1, .f32⟩
  | .hbm, ⟨37, _⟩ => ⟨S32x1x16x16, .f32⟩
  | .hbm, ⟨38, _⟩ => ⟨S32x4096x16x16, .f32⟩
  | .hbm, ⟨39, _⟩ => ⟨S32x4096x16x16, .f32⟩
  | .hbm, ⟨40, _⟩ => ⟨S32x4096x16x16, .f32⟩
  | .hbm, ⟨41, _⟩ => ⟨S32x4096x16x16, .f32⟩
  | .hbm, ⟨42, _⟩ => ⟨S1x32x16x16, .f32⟩
  | .hbm, ⟨43, _⟩ => ⟨S32x16x16, .f32⟩
  | .hbm, ⟨44, _⟩ => ⟨S1x4096x16x1, .f32⟩
  | .hbm, ⟨45, _⟩ => ⟨S32x1x16x16, .f32⟩
  | .hbm, ⟨46, _⟩ => ⟨S32x4096x16x16, .f32⟩
  | .hbm, ⟨47, _⟩ => ⟨S32x4096x16x16, .f32⟩
  | .hbm, ⟨48, _⟩ => ⟨S32x4096x16x16, .f32⟩
  | .hbm, ⟨49, _⟩ => ⟨S32x4096x16x16, .f32⟩
  | .hbm, ⟨50, _⟩ => ⟨S1x32x16x16, .f32⟩
  | .hbm, ⟨51, _⟩ => ⟨S32x16x16, .f32⟩
  | .hbm, ⟨52, _⟩ => ⟨S1x4096x16x1, .f32⟩
  | .hbm, ⟨53, _⟩ => ⟨S32x1x16x16, .f32⟩
  | .hbm, ⟨54, _⟩ => ⟨S32x4096x16x16, .f32⟩
  | .hbm, ⟨55, _⟩ => ⟨S32x4096x16x16, .f32⟩
  | .hbm, ⟨56, _⟩ => ⟨S32x4096x16x16, .f32⟩
  | .hbm, ⟨57, _⟩ => ⟨S32x4096x16x16, .f32⟩
  | .hbm, ⟨58, _⟩ => ⟨S1x32x16x16, .f32⟩
  | .hbm, ⟨59, _⟩ => ⟨S32x16x16, .f32⟩
  | .hbm, ⟨60, _⟩ => ⟨S1x4096x16x1, .f32⟩
  | .hbm, ⟨61, _⟩ => ⟨S32x1x16x16, .f32⟩
  | .hbm, ⟨62, _⟩ => ⟨S32x4096x16x16, .f32⟩
  | .hbm, ⟨63, _⟩ => ⟨S32x4096x16x16, .f32⟩
  | .hbm, ⟨64, _⟩ => ⟨S32x4096x16x16, .f32⟩
  | .hbm, ⟨65, _⟩ => ⟨S32x4096x16x16, .f32⟩
  | .hbm, ⟨66, _⟩ => ⟨S1x32x16x16, .f32⟩
  | .hbm, ⟨67, _⟩ => ⟨S32x16x16, .f32⟩
  | .hbm, ⟨68, _⟩ => ⟨S1x4096x16x1, .f32⟩
  | .hbm, ⟨69, _⟩ => ⟨S32x1x16x16, .f32⟩
  | .hbm, ⟨70, _⟩ => ⟨S32x4096x16x16, .f32⟩
  | .hbm, ⟨71, _⟩ => ⟨S32x4096x16x16, .f32⟩
  | .hbm, ⟨72, _⟩ => ⟨S32x4096x16x16, .f32⟩
  | .hbm, ⟨73, _⟩ => ⟨S32x4096x16x16, .f32⟩
  | _, _ => ⟨S8x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩

abbrev nD : Nat := 1
abbrev τ : Topo := Topo.v7x

variable {F : FTy → Type} [FloatOps F]

class Facts₀ : Prop where
  bcast_S4096_S1x4096x1_1 : S4096.BroadcastsInDim S1x4096x1 (![1] : Fin 1 → Fin S1x4096x1.rank)
  bcast_S16_S1x1x16_2 : S16.BroadcastsInDim S1x1x16 (![2] : Fin 1 → Fin S1x1x16.rank)
  bcast_S1x4096x1_S1x4096x16_0_1_2 : S1x4096x1.BroadcastsInDim S1x4096x16 (![0, 1, 2] : Fin 3 → Fin S1x4096x16.rank)
  bcast_S1x1x16_S1x4096x16_0_1_2 : S1x1x16.BroadcastsInDim S1x4096x16 (![0, 1, 2] : Fin 3 → Fin S1x4096x16.rank)
  slices_S8x32x16x16_S1x32x16x16_0_0_0_0 : S8x32x16x16.Slices ![0, 0, 0, 0] S1x32x16x16
  shapeCasts_S1x32x16x16_S32x16x16 : S1x32x16x16.ShapeCasts S32x16x16
  bcast_S1x4096x16_S1x4096x16x1_0_1_2 : S1x4096x16.BroadcastsInDim S1x4096x16x1 (![0, 1, 2] : Fin 3 → Fin S1x4096x16x1.rank)
  bcast_S32x16x16_S32x1x16x16_0_2_3 : S32x16x16.BroadcastsInDim S32x1x16x16 (![0, 2, 3] : Fin 3 → Fin S32x1x16x16.rank)
  bcast_S1x4096x16x1_S32x4096x16x16_0_1_2_3 : S1x4096x16x1.BroadcastsInDim S32x4096x16x16 (![0, 1, 2, 3] : Fin 4 → Fin S32x4096x16x16.rank)
  bcast_S32x1x16x16_S32x4096x16x16_0_1_2_3 : S32x1x16x16.BroadcastsInDim S32x4096x16x16 (![0, 1, 2, 3] : Fin 4 → Fin S32x4096x16x16.rank)
  slices_S8x32x16x16_S1x32x16x16_1_0_0_0 : S8x32x16x16.Slices ![1, 0, 0, 0] S1x32x16x16
  slices_S8x32x16x16_S1x32x16x16_2_0_0_0 : S8x32x16x16.Slices ![2, 0, 0, 0] S1x32x16x16
  slices_S8x32x16x16_S1x32x16x16_3_0_0_0 : S8x32x16x16.Slices ![3, 0, 0, 0] S1x32x16x16
  slices_S8x32x16x16_S1x32x16x16_4_0_0_0 : S8x32x16x16.Slices ![4, 0, 0, 0] S1x32x16x16
  slices_S8x32x16x16_S1x32x16x16_5_0_0_0 : S8x32x16x16.Slices ![5, 0, 0, 0] S1x32x16x16
  slices_S8x32x16x16_S1x32x16x16_6_0_0_0 : S8x32x16x16.Slices ![6, 0, 0, 0] S1x32x16x16
  slices_S8x32x16x16_S1x32x16x16_7_0_0_0 : S8x32x16x16.Slices ![7, 0, 0, 0] S1x32x16x16
  dot_S32x4096x16x16_S32x4096x16x16_S32x4096x16x16_3_2_2_3_01_01_wf : DotDims.WF S32x4096x16x16 S32x4096x16x16 S32x4096x16x16 [3] [2] [2] [3] [0, 1] [0, 1]

variable [Facts₀]

def dot_S32x4096x16x16_S32x4096x16x16_S32x4096x16x16_3_2_2_3_01_01 : DotDims S32x4096x16x16 S32x4096x16x16 S32x4096x16x16 where
  lhsContracting := [3]
  rhsContracting := [2]
  lhsNonContracting := [2]
  rhsNonContracting := [3]
  lhsBatch := [0, 1]
  rhsBatch := [0, 1]
  wf := dot_S32x4096x16x16_S32x4096x16x16_S32x4096x16x16_3_2_2_3_01_01_wf

class Facts : Prop extends Facts₀ where

variable [Facts]
-- ==== Proof.Spec.lean ====
/-
  The mathematics of the cascade, with no program in sight.

  For one batch element and one frequency the result is a 16 x 16 matrix built in eight steps from a row-scale
  vector `D` (the frequency's powers `z_f ^ (-m_i)`) and eight stage matrices `U 0 … U 7`:
      W_0 = diag(D) · U_0,        W_k = W_{k-1} · diag(D) · U_k     (k = 1 … 7).
  The product `W · diag(D) · U` can be bracketed two ways, entry by entry:
      Σ_j W i j * (D j * U j q)        (scale the rows of `U` first, then multiply), or
      Σ_j (W i j * D j) * U j q        (scale the columns of `W` first, then multiply).
  Multiplication of extended reals is associative (they form a commutative monoid with zero), so the two agree term
  by term, with no finiteness assumption.
-/
import Idealize.ShloMosaic.PureOps.Ideal
import Idealize.ShloMosaic.Lib.ValueIdx

noncomputable section

open scoped BigOperators

namespace Cert.Chain

open Idealize.ShloMosaic Idealize.ShloMosaic.ValueIdx

/-- The first step: the rows of `U` scaled by `D`. -/
def first (D : Fin 16 → EReal) (U : Fin 16 → Fin 16 → EReal) : Fin 16 → Fin 16 → EReal :=
  fun i j => D i * U i j

/-- One further step, the rows of `U` scaled first: entry `(i, q)` is `Σ_j W i j * (D j * U j q)`. -/
def stage (D : Fin 16 → EReal) (W U : Fin 16 → Fin 16 → EReal) : Fin 16 → Fin 16 → EReal :=
  fun i q => ∑ j : Fin 16, W i j * (D j * U j q)

/-- The same step, the columns of `W` scaled first: entry `(i, q)` is `Σ_j (W i j * D j) * U j q`. -/
def stageL (D : Fin 16 → EReal) (W U : Fin 16 → Fin 16 → EReal) : Fin 16 → Fin 16 → EReal :=
  fun i q => ∑ j : Fin 16, (W i j * D j) * U j q

/-- The two bracketings are one function: associativity of the product, term by term. -/
theorem stageL_eq_stage (D : Fin 16 → EReal) (W U : Fin 16 → Fin 16 → EReal) : stageL D W U = stage D W U := by
  funext i q
  exact Finset.sum_congr rfl fun j _ => mul_assoc _ _ _

/-- The whole cascade of eight stage matrices, rows scaled first. -/
def chain (D : Fin 16 → EReal) (U0 U1 U2 U3 U4 U5 U6 U7 : Fin 16 → Fin 16 → EReal) : Fin 16 → Fin 16 → EReal :=
  stage D (stage D (stage D (stage D (stage D (stage D (stage D (first D U0) U1) U2) U3) U4) U5) U6) U7

/-- The whole cascade, columns scaled first. -/
def chainL (D : Fin 16 → EReal) (U0 U1 U2 U3 U4 U5 U6 U7 : Fin 16 → Fin 16 → EReal) : Fin 16 → Fin 16 → EReal :=
  stageL D (stageL D (stageL D (stageL D (stageL D (stageL D (stageL D (first D U0) U1) U2) U3) U4) U5) U6) U7

theorem chainL_eq_chain (D : Fin 16 → EReal) (U0 U1 U2 U3 U4 U5 U6 U7 : Fin 16 → Fin 16 → EReal) :
    chainL D U0 U1 U2 U3 U4 U5 U6 U7 = chain D U0 U1 U2 U3 U4 U5 U6 U7 := by
  unfold chainL chain
  simp only [stageL_eq_stage]

/-- The row-scale table: entry `(f, i)` is `z_f` raised to the power `-m_i` (the exponent an integer read as a float). -/
def scale (z : (⟨1, ![4096]⟩ : Shape).Idx → EReal) (e : (⟨1, ![16]⟩ : Shape).Idx → BitVec 32) (f : Fin 4096) : Fin 16 → EReal :=
  fun i => FloatOps.hostPowf (F := Ideal) (φ := .f32) (z (ix1 f)) (FloatOps.sitofp (F := Ideal) .f32 (-(e (ix1 i))))

/-- Stage matrix `k` of batch element `b`. -/
def mat (u : (⟨4, ![8, 32, 16, 16]⟩ : Shape).Idx → EReal) (k : Fin 8) (b : Fin 32) : Fin 16 → Fin 16 → EReal :=
  fun i j => u (ix4 k b i j)

/-- THE RESULT as one function of the three argument arrays: entry `(b, f, i, q)` is entry `(i, q)` of the cascade of
    batch element `b`'s eight stage matrices with frequency `f`'s row of the scale table. -/
def G (u : (⟨4, ![8, 32, 16, 16]⟩ : Shape).Idx → EReal) (z : (⟨1, ![4096]⟩ : Shape).Idx → EReal)
    (e : (⟨1, ![16]⟩ : Shape).Idx → BitVec 32) : (⟨4, ![32, 4096, 16, 16]⟩ : Shape).Idx → EReal :=
  fun y => chain (scale z e (y 1)) (mat u 0 (y 0)) (mat u 1 (y 0)) (mat u 2 (y 0)) (mat u 3 (y 0)) (mat u 4 (y 0)) (mat u 5 (y 0))
    (mat u 6 (y 0)) (mat u 7 (y 0)) (y 2) (y 3)

end Cert.Chain

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelStage.lean ====
/-
  One step of the cascade as the kernel computes it on a block of 512 frequencies, read at an entry.

  The kernel holds the running product for 512 frequencies as a [512, 16, 16] array, scales its COLUMNS by the
  block's scale table `d` (a [512, 16] array broadcast along the middle axis), flattens the first two axes to get an
  [8192, 16] matrix whose row `16 f + i` is row `i` of frequency `f`, multiplies it by ONE 16 x 16 stage matrix
  into a zero accumulator, and folds the rows back. At entry `(f, i, q)` this is
  `Σ_j (W (f, i, j) * d (f, j)) * u (j, q)`: the step of the cascade with the columns scaled first.
-/
import proofs.«172804_j21079699489095_2_alg».proof.Proof.Gen.KernelIdeal.Skeleton
import proofs.«172804_j21079699489095_2_alg».proof.Proof.Spec
import proofs.«172804_j21079699489095_2_alg».proof.Proof.LibMatmulPlain
import Idealize.ShloMosaic.Lib.Pipeline.Value
import Idealize.ShloMosaic.Lib.ValueLayout
import Idealize.ShloMosaic.PureOps.Ideal.Laws

noncomputable section

open scoped BigOperators

namespace Cert.KernelIdeal.Stage

open Cert.KernelIdeal Idealize.ShloMosaic Idealize.ShloMosaic.ValueIdx Cert.Chain

variable [Facts]
open Facts₀ Facts

/-! ## The layout operations of the body, read at an entry -/

/-- The scale table as a column factor: `d` viewed [512, 1, 16] and broadcast to [512, 16, 16] reads `d (f, j)` at `(f, i, j)`. -/
theorem colFactor_apply (d : FVec Ideal S512x16 .f32) (f : Fin 512) (i j : Fin 16) :
    broadcastTo S512x16x16 (shapeCast S512x1x16 d shapeCasts_S512x16_S512x1x16) broadcasts_S512x1x16_S512x16x16 (ix3 f i j)
      = d (ix2 f j) := by
  refine (broadcastTo_apply _ broadcasts_S512x1x16_S512x16x16 (ix3 f i j) (ix3 f (0 : Fin 1) j) fun a => ?_).trans ?_
  · match a with
    | ⟨0, _⟩ => rfl
    | ⟨1, _⟩ => rfl
    | ⟨2, _⟩ => rfl
  · exact shapeCast_apply d shapeCasts_S512x16_S512x1x16 _ _ (by
      rw [Shape.rowMajor_val_two, Shape.rowMajor_val_three]
      show f.val * 16 + j.val = (f.val * 1 + 0) * 16 + j.val
      omega)

/-- The scale table as a row factor: `d` viewed [512, 16, 1] and broadcast to [512, 16, 16] reads `d (f, i)` at `(f, i, j)`. -/
theorem rowFactor_apply (d : FVec Ideal S512x16 .f32) (f : Fin 512) (i j : Fin 16) :
    broadcastTo S512x16x16 (shapeCast S512x16x1 d shapeCasts_S512x16_S512x16x1) broadcasts_S512x16x1_S512x16x16 (ix3 f i j)
      = d (ix2 f i) := by
  refine (broadcastTo_apply _ broadcasts_S512x16x1_S512x16x16 (ix3 f i j) (ix3 f i (0 : Fin 1)) fun a => ?_).trans ?_
  · match a with
    | ⟨0, _⟩ => rfl
    | ⟨1, _⟩ => rfl
    | ⟨2, _⟩ => rfl
  · exact shapeCast_apply d shapeCasts_S512x16_S512x16x1 _ _ (by
      rw [Shape.rowMajor_val_two, Shape.rowMajor_val_three]
      show f.val * 16 + i.val = (f.val * 16 + i.val) * 1 + 0
      omega)

/-- A loaded [1, 1, 16, 16] stage matrix viewed [16, 16] reads `u (0, 0, j, q)` at `(j, q)`. -/
theorem square_apply (u : Vec Ideal S1x1x16x16 .f32) (j q : Fin 16) :
    shapeCast S16x16 u shapeCasts_S1x1x16x16_S16x16 (ix2 j q) = u (ix4 (0 : Fin 1) (0 : Fin 1) j q) :=
  shapeCast_apply u shapeCasts_S1x1x16x16_S16x16 _ _ (by
    rw [Shape.rowMajor_val_two, Shape.rowMajor_val_four]
    show ((0 * 1 + 0) * 16 + j.val) * 16 + q.val = j.val * 16 + q.val
    omega)

/-- The first stage matrix, viewed [1, 16, 16] and broadcast over the 512 frequencies, reads `u (0, 0, i, j)` at `(f, i, j)`. -/
theorem matFactor_apply (u : Vec Ideal S1x1x16x16 .f32) (f : Fin 512) (i j : Fin 16) :
    broadcastTo S512x16x16 (shapeCast S1x16x16 (shapeCast S16x16 u shapeCasts_S1x1x16x16_S16x16) shapeCasts_S16x16_S1x16x16)
      broadcasts_S1x16x16_S512x16x16 (ix3 f i j) = u (ix4 (0 : Fin 1) (0 : Fin 1) i j) := by
  refine (broadcastTo_apply _ broadcasts_S1x16x16_S512x16x16 (ix3 f i j) (ix3 (0 : Fin 1) i j) fun a => ?_).trans ?_
  · match a with
    | ⟨0, _⟩ => rfl
    | ⟨1, _⟩ => rfl
    | ⟨2, _⟩ => rfl
  · exact (shapeCast_ab_1ab_apply _ shapeCasts_S16x16_S1x16x16 (0 : Fin 1) i j).trans (square_apply u i j)

/-- Row `16 f + i` of the flattened array is row `i` of frequency `f`. -/
theorem flat_apply (X : FVec Ideal S512x16x16 .f32) (f : Fin 512) (i j : Fin 16) (h : 16 * f.val + i.val < 8192) :
    shapeCast S8192x16 X shapeCasts_S512x16x16_S8192x16 (ix2 (⟨16 * f.val + i.val, h⟩ : Fin 8192) j) = X (ix3 f i j) :=
  shapeCast_apply X shapeCasts_S512x16x16_S8192x16 _ _ (by
    rw [Shape.rowMajor_val_two, Shape.rowMajor_val_three]
    show (f.val * 16 + i.val) * 16 + j.val = (16 * f.val + i.val) * 16 + j.val
    omega)

/-- Folding back: entry `(f, i, q)` of the [512, 16, 16] view is entry `(16 f + i, q)` of the [8192, 16] matrix. -/
theorem fold_apply (Y : FVec Ideal S8192x16 .f32) (f : Fin 512) (i q : Fin 16) (h : 16 * f.val + i.val < 8192) :
    shapeCast S512x16x16 Y shapeCasts_S8192x16_S512x16x16 (ix3 f i q) = Y (ix2 (⟨16 * f.val + i.val, h⟩ : Fin 8192) q) :=
  shapeCast_apply Y shapeCasts_S8192x16_S512x16x16 _ _ (by
    rw [Shape.rowMajor_val_two, Shape.rowMajor_val_three]
    show (16 * f.val + i.val) * 16 + q.val = (f.val * 16 + i.val) * 16 + q.val
    omega)

/-! ## The body's steps -/

/-- The scale table's row for frequency `f` of the block. -/
def row (d : FVec Ideal S512x16 .f32) (f : Fin 512) : Fin 16 → EReal := fun j => d (ix2 f j)

/-- A loaded stage matrix as a 16 x 16 matrix. -/
def sq (u : Vec Ideal S1x1x16x16 .f32) : Fin 16 → Fin 16 → EReal := fun j q => u (ix4 (0 : Fin 1) (0 : Fin 1) j q)

/-- Frequency `f`'s 16 x 16 matrix of a [512, 16, 16] array. -/
def slab (W : FVec Ideal S512x16x16 .f32) (f : Fin 512) : Fin 16 → Fin 16 → EReal := fun i j => W (ix3 f i j)

/-- The body's first step: the scale table as a row factor times the first stage matrix, broadcast over the frequencies. -/
def kfirst (d : FVec Ideal S512x16 .f32) (u : Vec Ideal S1x1x16x16 .f32) : FVec Ideal S512x16x16 .f32 :=
  mulf (broadcastTo S512x16x16 (shapeCast S512x16x1 d shapeCasts_S512x16_S512x16x1) broadcasts_S512x16x1_S512x16x16)
    (broadcastTo S512x16x16 (shapeCast S1x16x16 (shapeCast S16x16 u shapeCasts_S1x1x16x16_S16x16) shapeCasts_S16x16_S1x16x16)
      broadcasts_S1x16x16_S512x16x16)

/-- One further step of the body: scale the columns, flatten, multiply by the stage matrix into zero, fold back. -/
def kstage (W : FVec Ideal S512x16x16 .f32) (d : FVec Ideal S512x16 .f32) (u : Vec Ideal S1x1x16x16 .f32) : FVec Ideal S512x16x16 .f32 :=
  shapeCast S512x16x16 (matmul dot_S8192x16_S16x16_S8192x16_1_0_0_1_n_n (some .fp32)
    (shapeCast S8192x16 (mulf W (broadcastTo S512x16x16 (shapeCast S512x1x16 d shapeCasts_S512x16_S512x1x16) broadcasts_S512x1x16_S512x16x16))
      shapeCasts_S512x16x16_S8192x16)
    (shapeCast S16x16 u shapeCasts_S1x1x16x16_S16x16 : FVec Ideal S16x16 .f32) (constant S8192x16 .f32 0x00000000#32)) shapeCasts_S8192x16_S512x16x16

/-- Frequency by frequency the first step is the cascade's first step. -/
theorem slab_kfirst (d : FVec Ideal S512x16 .f32) (u : Vec Ideal S1x1x16x16 .f32) (f : Fin 512) :
    slab (kfirst d u) f = first (row d f) (sq u) := by
  funext i j
  show kfirst d u (ix3 f i j) = d (ix2 f i) * u (ix4 (0 : Fin 1) (0 : Fin 1) i j)
  unfold kfirst
  rw [mulf_apply, rowFactor_apply, matFactor_apply]

/-- Frequency by frequency a further step of the body is the cascade's step with the columns scaled first: the flattened
    matrix's row `16 f + i` is row `i` of frequency `f`, and the product into zero is the plain sum over the 16 columns. -/
theorem slab_kstage (W : FVec Ideal S512x16x16 .f32) (d : FVec Ideal S512x16 .f32) (u : Vec Ideal S1x1x16x16 .f32) (f : Fin 512) :
    slab (kstage W d u) f = stageL (row d f) (slab W f) (sq u) := by
  funext i q
  have h : 16 * f.val + i.val < 8192 := by have := f.isLt; have := i.isLt; omega
  show kstage W d u (ix3 f i q) = ∑ j : Fin 16, (W (ix3 f i j) * d (ix2 f j)) * u (ix4 (0 : Fin 1) (0 : Fin 1) j q)
  unfold kstage
  rw [fold_apply _ f i q h]
  refine (Cert.Lib.matmul_plain_zero_apply 8192 16 16 (some .fp32) _ _ ⟨16 * f.val + i.val, h⟩ q).trans ?_
  refine Finset.sum_congr rfl fun j _ => ?_
  rw [flat_apply _ f i j h, mulf_apply, colFactor_apply, square_apply]

/-! ## The body's payload -/

/-- THE PAYLOAD AT AN ENTRY: what the body stores at `(0, f, i, q)` of its [1, 512, 16, 16] block is entry `(i, q)` of the
    cascade (columns scaled first) of the eight loaded stage matrices with row `f` of the loaded scale block. -/
theorem pay_apply (x1 : Vec Ideal S512x16 .f32) (a0 a1 a2 a3 a4 a5 a6 a7 : Vec Ideal S1x1x16x16 .f32) (f : Fin 512) (i q : Fin 16) :
    Gen.k0_pay1 (Gen.k0_pay2 x1) (Gen.k0_pay3 x1 a0 a1 a2 a3) a4 a5 a6 a7 (ix4 (0 : Fin 1) f i q)
      = chainL (row x1 f) (sq a0) (sq a1) (sq a2) (sq a3) (sq a4) (sq a5) (sq a6) (sq a7) i q := by
  have e2 : Gen.k0_pay2 x1 = x1 := shapeCast_self _ _
  have e : Gen.k0_pay1 (Gen.k0_pay2 x1) (Gen.k0_pay3 x1 a0 a1 a2 a3) a4 a5 a6 a7
      = shapeCast S1x512x16x16 (kstage (kstage (kstage (kstage (kstage (kstage (kstage (kfirst (Gen.k0_pay2 x1) a0)
          (Gen.k0_pay2 x1) a1) (Gen.k0_pay2 x1) a2) (Gen.k0_pay2 x1) a3) (Gen.k0_pay2 x1) a4) (Gen.k0_pay2 x1) a5) (Gen.k0_pay2 x1) a6)
          (Gen.k0_pay2 x1) a7) shapeCasts_S512x16x16_S1x512x16x16 := rfl
  rw [e, e2, shapeCast_abc_1abc_apply]
  show slab (kstage _ x1 a7) f i q = _
  rw [slab_kstage, slab_kstage, slab_kstage, slab_kstage, slab_kstage, slab_kstage, slab_kstage, slab_kfirst]
  rfl

end Cert.KernelIdeal.Stage

end
-- ==== Proof.KernelValue.lean ====
/-
  From the blocks to the whole array: what the kernel leaves in its result array is the cascade.

  The grid has 32 x 8 points. Point `(b, g)` is handed the eight stage matrices of batch element `b` (a [8, 1, 16, 16]
  block of the stack), rows `512 g … 512 g + 511` of the scale table (a [512, 16] block of the [4096, 16] table the
  host part of the program computes before the call: `z_f ^ (-m_i)`), and writes the [1, 512, 16, 16] block of the result
  at batch element `b`, frequencies `512 g …`. So what point `(b, g)` writes at `(0, f', i, q)` is the cascade of batch
  element `b` at frequency `512 g + f'`, which is the whole-array function read through the block; the 256 blocks tile
  the result array, so after the run the array is that function everywhere.
-/
import proofs.«172804_j21079699489095_2_alg».proof.Proof.Gen.KernelIdeal.Value
import proofs.«172804_j21079699489095_2_alg».proof.Proof.KernelStage
import Idealize.ShloMosaic.Lib.StableHlo.Run

set_option maxRecDepth 16384

noncomputable section

open scoped BigOperators

namespace Cert.KernelIdeal.BlockValue

open Cert.KernelIdeal Cert.KernelIdeal.Gen Idealize.ShloMosaic Idealize.ShloMosaic.TcCoe Idealize.SL.Sem Idealize.ShloMosaic.ValueIdx Cert.Chain
open Cert.KernelIdeal.Stage (row sq pay_apply)
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The body's loads of the stage matrices: load number `k` reads matrix `k` of the staged block -/

theorem ld0 (x0 : Vec Ideal S8x1x16x16 .f32) (j q : Fin 16) :
    View.ld x0 r0_1 (ix4 (0 : Fin 1) (0 : Fin 1) j q) = x0 (ix4 (0 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld1 (x0 : Vec Ideal S8x1x16x16 .f32) (j q : Fin 16) :
    View.ld x0 r0_2 (ix4 (0 : Fin 1) (0 : Fin 1) j q) = x0 (ix4 (1 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld2 (x0 : Vec Ideal S8x1x16x16 .f32) (j q : Fin 16) :
    View.ld x0 r0_3 (ix4 (0 : Fin 1) (0 : Fin 1) j q) = x0 (ix4 (2 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld3 (x0 : Vec Ideal S8x1x16x16 .f32) (j q : Fin 16) :
    View.ld x0 r0_4 (ix4 (0 : Fin 1) (0 : Fin 1) j q) = x0 (ix4 (3 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld4 (x0 : Vec Ideal S8x1x16x16 .f32) (j q : Fin 16) :
    View.ld x0 r0_5 (ix4 (0 : Fin 1) (0 : Fin 1) j q) = x0 (ix4 (4 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld5 (x0 : Vec Ideal S8x1x16x16 .f32) (j q : Fin 16) :
    View.ld x0 r0_6 (ix4 (0 : Fin 1) (0 : Fin 1) j q) = x0 (ix4 (5 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld6 (x0 : Vec Ideal S8x1x16x16 .f32) (j q : Fin 16) :
    View.ld x0 r0_7 (ix4 (0 : Fin 1) (0 : Fin 1) j q) = x0 (ix4 (6 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

theorem ld7 (x0 : Vec Ideal S8x1x16x16 .f32) (j q : Fin 16) :
    View.ld x0 r0_8 (ix4 (0 : Fin 1) (0 : Fin 1) j q) = x0 (ix4 (7 : Fin 8) (0 : Fin 1) j q) := by
  show x0 _ = x0 _
  congr 1
  funext a
  refine Fin.ext ?_
  match a with
  | ⟨0, _⟩ => rfl
  | ⟨1, _⟩ => rfl
  | ⟨2, _⟩ => show 0 + 1 * j.val = j.val; omega
  | ⟨3, _⟩ => show 0 + 1 * q.val = q.val; omega

/-! ## One block -/

/-- WHAT THE BODY STORES, from what its two input blocks hold: if the staged stack block holds batch element `b`'s eight
    matrices and the staged table block holds the scale rows of the frequencies `gf 0, gf 1, …`, the stored block at
    `(·, f', i, q)` is the result function at `(b, gf f', i, q)`. -/
theorem block_eq (u : S8x32x16x16.Idx → EReal) (z : S4096.Idx → EReal) (e : S16.Idx → BitVec 32)
    (x0 : Vec Ideal S8x1x16x16 .f32) (x1 : Vec Ideal S512x16 .f32) (b : Fin 32) (gf : Fin 512 → Fin 4096)
    (h0 : ∀ (k : Fin 8) (j q : Fin 16), x0 (ix4 k (0 : Fin 1) j q) = u (ix4 k b j q))
    (h1 : ∀ (fl : Fin 512) (i : Fin 16), x1 (ix2 fl i) = scale z e (gf fl) i) (y : S1x512x16x16.Idx) :
    k0_pay1 (k0_pay2 x1) (k0_pay3 x1 (View.ld x0 r0_1) (View.ld x0 r0_2) (View.ld x0 r0_3) (View.ld x0 r0_4))
        (View.ld x0 r0_5) (View.ld x0 r0_6) (View.ld x0 r0_7) (View.ld x0 r0_8) y
      = G u z e (ix4 b (gf (y 1)) (y 2) (y 3)) := by
  obtain ⟨o, fl, i, q, rfl⟩ : ∃ (o : Fin 1) (fl : Fin 512) (i q : Fin 16), y = ix4 o fl i q := ⟨y 0, y 1, y 2, y 3, eq_ix4 y⟩
  obtain rfl : o = 0 := Subsingleton.elim _ _
  rw [pay_apply, chainL_eq_chain]
  have hr : row x1 fl = scale z e (gf fl) := funext fun i => h1 fl i
  have s0 : Stage.sq (View.ld x0 r0_1) = mat u 0 b := funext fun j => funext fun q => (ld0 x0 j q).trans (h0 0 j q)
  have s1 : Stage.sq (View.ld x0 r0_2) = mat u 1 b := funext fun j => funext fun q => (ld1 x0 j q).trans (h0 1 j q)
  have s2 : Stage.sq (View.ld x0 r0_3) = mat u 2 b := funext fun j => funext fun q => (ld2 x0 j q).trans (h0 2 j q)
  have s3 : Stage.sq (View.ld x0 r0_4) = mat u 3 b := funext fun j => funext fun q => (ld3 x0 j q).trans (h0 3 j q)
  have s4 : Stage.sq (View.ld x0 r0_5) = mat u 4 b := funext fun j => funext fun q => (ld4 x0 j q).trans (h0 4 j q)
  have s5 : Stage.sq (View.ld x0 r0_6) = mat u 5 b := funext fun j => funext fun q => (ld5 x0 j q).trans (h0 5 j q)
  have s6 : Stage.sq (View.ld x0 r0_7) = mat u 6 b := funext fun j => funext fun q => (ld6 x0 j q).trans (h0 6 j q)
  have s7 : Stage.sq (View.ld x0 r0_8) = mat u 7 b := funext fun j => funext fun q => (ld7 x0 j q).trans (h0 7 j q)
  rw [hr, s0, s1, s2, s3, s4, s5, s6, s7]
  rfl

/-! ## The scale table the host part computes before the call -/

/-- The table as the region finds it: entry `(f, i)` is `z_f ^ (-m_i)`. -/
theorem table (c : Dev nD) : (V m c main_v7 : S4096x16.Idx → EReal)
    = fun y => scale (m ((c : Thread nD τ).loc main_arg1)) (m ((c : Thread nD τ).loc main_arg2)) (y 0) (y 1) := by
  dsimp only [Gen.V, Gen.hostOps0]
  after_results
  funext y
  show FloatOps.hostPowf (F := Ideal) (φ := .f32) (broadcastInDim S4096x16 ![0, 1] bcast_S4096x1_S4096x16_0_1 (broadcastInDim S4096x1 ![0] bcast_S4096_S4096x1_0 (m (c, Proc.tc.devRef main_arg1))) y)
      (broadcastInDim S4096x16 ![0, 1] bcast_S1x16_S4096x16_0_1 (sitofp (F := Ideal) .f32 (broadcastInDim S1x16 ![1] bcast_S16_S1x16_1 (negi (m (c, Proc.tc.devRef main_arg2))))) y) = _
  rw [broadcastInDim_apply _ bcast_S4096x1_S4096x16_0_1 _ y (ix2 (y 0) (0 : Fin 1)) (fun a => match a with
      | ⟨0, _⟩ => by show (y 0).val = if (4096 : Nat) = 1 then 0 else (y 0).val; rw [if_neg (by decide)]
      | ⟨1, _⟩ => by show 0 = if (1 : Nat) = 1 then 0 else (y 1).val; rw [if_pos rfl]),
    broadcastInDim_apply _ bcast_S4096_S4096x1_0 _ (ix2 (y 0) (0 : Fin 1)) (ix1 (y 0)) (fun a => match a with
      | ⟨0, _⟩ => by show (y 0).val = if (4096 : Nat) = 1 then 0 else (y 0).val; rw [if_neg (by decide)]),
    broadcastInDim_apply _ bcast_S1x16_S4096x16_0_1 _ y (ix2 (0 : Fin 1) (y 1)) (fun a => match a with
      | ⟨0, _⟩ => by show 0 = if (1 : Nat) = 1 then 0 else (y 0).val; rw [if_pos rfl]
      | ⟨1, _⟩ => by show (y 1).val = if (16 : Nat) = 1 then 0 else (y 1).val; rw [if_neg (by decide)])]
  show FloatOps.hostPowf (F := Ideal) (φ := .f32) _ (FloatOps.sitofp (F := Ideal) .f32 (broadcastInDim S1x16 ![1] bcast_S16_S1x16_1 (negi (m (c, Proc.tc.devRef main_arg2))) (ix2 (0 : Fin 1) (y 1)))) = _
  rw [broadcastInDim_apply _ bcast_S16_S1x16_1 _ (ix2 (0 : Fin 1) (y 1)) (ix1 (y 1)) (fun a => match a with
      | ⟨0, _⟩ => by show (y 1).val = if (16 : Nat) = 1 then 0 else (y 1).val; rw [if_neg (by decide)])]
  rfl

/-! ## The index maps, decided over the 256 grid points -/

/-- The stack's block is batch element `b`'s, the table's block is row block `g`, where the result's block is `(b, g)`. -/
theorem idx_facts : ∀ t : Fin cfg0.N, win0_0.index t (0 : Fin 4) = 0 ∧ win0_0.index t (1 : Fin 4) = win0_2.index t (0 : Fin 4)
    ∧ win0_0.index t (2 : Fin 4) = 0 ∧ win0_0.index t (3 : Fin 4) = 0
    ∧ win0_1.index t (0 : Fin 2) = win0_2.index t (1 : Fin 4) ∧ win0_1.index t (1 : Fin 2) = 0
    ∧ win0_2.index t (0 : Fin 4) ≤ 31 ∧ win0_2.index t (1 : Fin 4) ≤ 7 ∧ win0_2.index t (2 : Fin 4) = 0 ∧ win0_2.index t (3 : Fin 4) = 0 :=
  (by decide +kernel : ∀ t : Fin grid0.N, _)

/-- Every block `(b, g)` of the result is some point's. -/
theorem idx_onto : ∀ (q0 : Fin 32) (q1 : Fin 8), ∃ t : Fin cfg0.N, win0_2.index t = ![q0.val, q1.val, 0, 0] :=
  (by decide +kernel : ∀ (q0 : Fin 32) (q1 : Fin 8), ∃ t : Fin grid0.N, win0_2.index t = ![q0.val, q1.val, 0, 0])

/-! ## What a point writes back -/

/-- WHAT POINT `t` WRITES BACK is block `t` of the cascade of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero hz4]
  simp only [View.ld_unit_zero (S := S512x16) hz2]
  obtain ⟨e0, e1, e2, e3, e4, e5, e6, e7, e8, e9⟩ := idx_facts t
  have hb : win0_2.index t (0 : Fin 4) < 32 := by omega
  have hg (fl : Fin 512) : win0_2.index t (1 : Fin 4) * 512 + fl.val < 4096 := by have := fl.isLt; omega
  funext y
  show k0_pay1 (k0_pay2 (iblk m c 1 t))
        (k0_pay3 (iblk m c 1 t) (View.ld (iblk m c 0 t) r0_1) (View.ld (iblk m c 0 t) r0_2) (View.ld (iblk m c 0 t) r0_3)
          (View.ld (iblk m c 0 t) r0_4))
        (View.ld (iblk m c 0 t) r0_5) (View.ld (iblk m c 0 t) r0_6) (View.ld (iblk m c 0 t) r0_7) (View.ld (iblk m c 0 t) r0_8) y
      = G (m ((c : Thread nD τ).loc main_arg0)) (m ((c : Thread nD τ).loc main_arg1)) (m ((c : Thread nD τ).loc main_arg2))
          (((cfg0.win 2).blk t).view.emb y)
  refine (block_eq (m ((c : Thread nD τ).loc main_arg0)) (m ((c : Thread nD τ).loc main_arg1)) (m ((c : Thread nD τ).loc main_arg2))
    (iblk m c 0 t) (iblk m c 1 t) ⟨win0_2.index t (0 : Fin 4), hb⟩ (fun fl => ⟨win0_2.index t (1 : Fin 4) * 512 + fl.val, hg fl⟩) ?_ ?_ y).trans ?_
  · intro k j q
    show V m c main_arg0 (((cfg0.win 0).blk t).view.emb (ix4 k (0 : Fin 1) j q)) = _
    rw [V_main_arg0]
    congr 1
    funext a
    refine Fin.ext ?_
    match a with
    | ⟨0, _⟩ => show win0_0.index t (0 : Fin 4) * 8 + 1 * k.val = k.val; omega
    | ⟨1, _⟩ => show win0_0.index t (1 : Fin 4) * 1 + 1 * 0 = win0_2.index t (0 : Fin 4); omega
    | ⟨2, _⟩ => show win0_0.index t (2 : Fin 4) * 16 + 1 * j.val = j.val; omega
    | ⟨3, _⟩ => show win0_0.index t (3 : Fin 4) * 16 + 1 * q.val = q.val; omega
  · intro fl i
    show V m c main_v7 (((cfg0.win 1).blk t).view.emb (ix2 fl i)) = _
    rw [table]
    show scale _ _ ((((cfg0.win 1).blk t).view.emb (ix2 fl i)) 0) ((((cfg0.win 1).blk t).view.emb (ix2 fl i)) 1) = _
    congr 1
    · refine Fin.ext ?_
      show win0_1.index t (0 : Fin 2) * 512 + 1 * fl.val = win0_2.index t (1 : Fin 4) * 512 + fl.val
      omega
    · refine Fin.ext ?_
      show win0_1.index t (1 : Fin 2) * 16 + 1 * i.val = i.val
      omega
  · congr 1
    funext a
    refine Fin.ext ?_
    match a with
    | ⟨0, _⟩ => show win0_2.index t (0 : Fin 4) = win0_2.index t (0 : Fin 4) * 1 + 1 * (y 0).val; have h : (y 0).val < 1 := (y 0).isLt; omega
    | ⟨1, _⟩ => show win0_2.index t (1 : Fin 4) * 512 + (y 1).val = win0_2.index t (1 : Fin 4) * 512 + 1 * (y 1).val; omega
    | ⟨2, _⟩ => show (y 2).val = win0_2.index t (2 : Fin 4) * 16 + 1 * (y 2).val; omega
    | ⟨3, _⟩ => show (y 3).val = win0_2.index t (3 : Fin 4) * 16 + 1 * (y 3).val; omega

/-! ## The blocks tile the result array -/

/-- An index of the array is in point `t`'s block iff each coordinate is in the block's range on its axis. -/
theorem mem_blk (t : Fin cfg0.N) (i : S32x4096x16x16.Idx) :
    i ∈ ((cfg0.win 2).blk t).view.set ↔ ∀ a : Fin 4, win0_2.index t a * S1x512x16x16.size a ≤ (i a).val
      ∧ (i a).val < win0_2.index t a * S1x512x16x16.size a + S1x512x16x16.size a := by
  show i ∈ ((View.whole main_v8).slice (win0_2.rect t)).set ↔ _
  rw [View.set_slice_whole, Rect.mem_set_unit]
  exact Iff.rfl

/-- Every index of the result array is in the block of the point `(b, f / 512)`. -/
theorem cover (i : S32x4096x16x16.Idx) : ∃ t : Fin cfg0.N, (cfg0.win 2).flush t = true ∧ i ∈ ((cfg0.win 2).blk t).view.set := by
  have hi0 : (i 0).val < 32 := (i 0).isLt
  have hi1 : (i 1).val < 4096 := (i 1).isLt
  have hi2 : (i 2).val < 16 := (i 2).isLt
  have hi3 : (i 3).val < 16 := (i 3).isLt
  obtain ⟨t, ht⟩ := idx_onto ⟨(i 0).val, hi0⟩ ⟨(i 1).val / 512, by omega⟩
  have q0 : win0_2.index t (0 : Fin 4) = (i 0).val := congrFun ht 0
  have q1 : win0_2.index t (1 : Fin 4) = (i 1).val / 512 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 512 ≤ (i 1).val ∧ (i 1).val < win0_2.index t (1 : Fin 4) * 512 + 512; omega
  | ⟨2, _⟩ => show win0_2.index t (2 : Fin 4) * 16 ≤ (i 2).val ∧ (i 2).val < win0_2.index t (2 : Fin 4) * 16 + 16; omega
  | ⟨3, _⟩ => show win0_2.index t (3 : Fin 4) * 16 ≤ (i 3).val ∧ (i 3).val < win0_2.index t (3 : Fin 4) * 16 + 16; omega

/-! ## The array after the run, and the run -/

/-- THE RESULT ARRAY after the run is the cascade of the argument arrays, everywhere. -/
theorem final (c : Dev nD) : (dats m 0 c).arrAt 2 cfg0.N
    = G (m ((c : Thread nD τ).loc main_arg0)) (m ((c : Thread nD τ).loc main_arg1)) (m ((c : Thread nD τ).loc main_arg2)) :=
  (dats m 0 c).arrAt_eq_of_cover 2 _ (fun t _ => flushed_eq m c t) cover

/-- The kernel's run: every weakly fair execution ends with the result array at the cascade of the arguments, the arguments
    unchanged. -/
theorem run : θ_run defs (onTc (τ := τ) (main (F := Ideal))) ⟨m, fun _ => 0, ρ⟩ fun r => ∀ c : Dev nD,
      r.2.mem ((c : Thread nD τ).loc main_v8)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.BlockValue

end
-- ==== Proof.RefValue.lean ====
/-
  The reference's result, read entry by entry, is the cascade with the rows scaled first.

  The reference builds the scale table `z_f ^ (-m_i)` once as a [1, 4096, 16] array; for every stage matrix it broadcasts
  the table along a new trailing axis and the stage matrix (a slice of the stack, reshaped) along the frequency axis,
  multiplies the two (the stage matrix with its ROWS scaled), and contracts the running product's last axis with the
  scaled matrix's row axis, batch element by batch element and frequency by frequency.
-/
import proofs.«172804_j21079699489095_2_alg».proof.Proof.Gen.ReferenceIdeal.Read
import proofs.«172804_j21079699489095_2_alg».proof.Proof.Spec

noncomputable section

open scoped BigOperators

namespace Cert.ReferenceIdeal.RefValue

open Cert.ReferenceIdeal Cert.ReferenceIdeal.Read Idealize.ShloMosaic Idealize.ShloMosaic.ValueIdx Cert.Chain

variable (x0 : (⟨S8x32x16x16, .f32⟩ : BufTy).Contents (Elt Ideal)) (x1 : (⟨S4096, .f32⟩ : BufTy).Contents (Elt Ideal))
  (x2 : (⟨S16, .i32⟩ : BufTy).Contents (Elt Ideal))

/-- The scale table the reference builds, at `(0, f, i)`: `z_f` to the power `-m_i`. -/
theorem table_apply (f : Fin 4096) (i : Fin 16) : val_main_v7 (F := Ideal) x1 x2 (ix3 (0 : Fin 1) f i) = scale x1 x2 f i := by
  rw [val_main_v7_apply, val_main_v5_apply, val_main_v0_apply, val_main_v6_apply, val_main_v4_apply, val_main_v2_apply,
    val_main_v1_apply]
  have a : idx_main_v0 (idx_main_v5 (ix3 (0 : Fin 1) f i)) = ix1 f := funext fun a => Fin.ext (match a with | ⟨0, _⟩ => rfl)
  have b : idx_main_v2 (idx_main_v6 (ix3 (0 : Fin 1) f i)) = ix1 i := funext fun a => Fin.ext (match a with | ⟨0, _⟩ => rfl)
  rw [a, b]
  rfl

/-- Frequency `f`'s 16 x 16 matrix of batch element `b` in a [32, 4096, 16, 16] array. -/
def slab (R : S32x4096x16x16.Idx → EReal) (b : Fin 32) (f : Fin 4096) : Fin 16 → Fin 16 → EReal := fun i j => R (ix4 b f i j)

/-! ## The eight stage matrices with their rows scaled -/

/-- Stage matrix 0 with its rows scaled, as the reference builds it, at `(b, f, j, q)`. -/
theorem scaled0 (b : Fin 32) (f : Fin 4096) (j q : Fin 16) :
    val_main_v14 (F := Ideal) x0 x1 x2 (ix4 b f j q) = scale x1 x2 f j * mat x0 0 b j q := by
  rw [val_main_v14_apply, val_main_v12_apply, val_main_v10_apply, val_main_v13_apply, val_main_v11_apply, val_main_v9_apply,
    val_main_v8_apply]
  have a : idx_main_v10 (idx_main_v12 (ix4 b f j q)) = ix3 (0 : Fin 1) f j :=
    funext fun a => Fin.ext (match a with | ⟨0, _⟩ => rfl | ⟨1, _⟩ => rfl | ⟨2, _⟩ => rfl)
  have c : idx_main_v8 (idx_main_v9 (idx_main_v11 (idx_main_v13 (ix4 b f j q)))) = ix4 (0 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 1 with its rows scaled, as the reference builds it, at `(b, f, j, q)`. -/
theorem scaled1 (b : Fin 32) (f : Fin 4096) (j q : Fin 16) :
    val_main_v21 (F := Ideal) x0 x1 x2 (ix4 b f j q) = scale x1 x2 f j * mat x0 1 b j q := by
  rw [val_main_v21_apply, val_main_v19_apply, val_main_v17_apply, val_main_v20_apply, val_main_v18_apply, val_main_v16_apply,
    val_main_v15_apply]
  have a : idx_main_v17 (idx_main_v19 (ix4 b f j q)) = ix3 (0 : Fin 1) f j :=
    funext fun a => Fin.ext (match a with | ⟨0, _⟩ => rfl | ⟨1, _⟩ => rfl | ⟨2, _⟩ => rfl)
  have c : idx_main_v15 (idx_main_v16 (idx_main_v18 (idx_main_v20 (ix4 b f j q)))) = ix4 (1 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 2 with its rows scaled, as the reference builds it, at `(b, f, j, q)`. -/
theorem scaled2 (b : Fin 32) (f : Fin 4096) (j q : Fin 16) :
    val_main_v29 (F := Ideal) x0 x1 x2 (ix4 b f j q) = scale x1 x2 f j * mat x0 2 b j q := by
  rw [val_main_v29_apply, val_main_v27_apply, val_main_v25_apply, val_main_v28_apply, val_main_v26_apply, val_main_v24_apply,
    val_main_v23_apply]
  have a : idx_main_v25 (idx_main_v27 (ix4 b f j q)) = ix3 (0 : Fin 1) f j :=
    funext fun a => Fin.ext (match a with | ⟨0, _⟩ => rfl | ⟨1, _⟩ => rfl | ⟨2, _⟩ => rfl)
  have c : idx_main_v23 (idx_main_v24 (idx_main_v26 (idx_main_v28 (ix4 b f j q)))) = ix4 (2 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 3 with its rows scaled, as the reference builds it, at `(b, f, j, q)`. -/
theorem scaled3 (b : Fin 32) (f : Fin 4096) (j q : Fin 16) :
    val_main_v37 (F := Ideal) x0 x1 x2 (ix4 b f j q) = scale x1 x2 f j * mat x0 3 b j q := by
  rw [val_main_v37_apply, val_main_v35_apply, val_main_v33_apply, val_main_v36_apply, val_main_v34_apply, val_main_v32_apply,
    val_main_v31_apply]
  have a : idx_main_v33 (idx_main_v35 (ix4 b f j q)) = ix3 (0 : Fin 1) f j :=
    funext fun a => Fin.ext (match a with | ⟨0, _⟩ => rfl | ⟨1, _⟩ => rfl | ⟨2, _⟩ => rfl)
  have c : idx_main_v31 (idx_main_v32 (idx_main_v34 (idx_main_v36 (ix4 b f j q)))) = ix4 (3 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 4 with its rows scaled, as the reference builds it, at `(b, f, j, q)`. -/
theorem scaled4 (b : Fin 32) (f : Fin 4096) (j q : Fin 16) :
    val_main_v45 (F := Ideal) x0 x1 x2 (ix4 b f j q) = scale x1 x2 f j * mat x0 4 b j q := by
  rw [val_main_v45_apply, val_main_v43_apply, val_main_v41_apply, val_main_v44_apply, val_main_v42_apply, val_main_v40_apply,
    val_main_v39_apply]
  have a : idx_main_v41 (idx_main_v43 (ix4 b f j q)) = ix3 (0 : Fin 1) f j :=
    funext fun a => Fin.ext (match a with | ⟨0, _⟩ => rfl | ⟨1, _⟩ => rfl | ⟨2, _⟩ => rfl)
  have c : idx_main_v39 (idx_main_v40 (idx_main_v42 (idx_main_v44 (ix4 b f j q)))) = ix4 (4 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 5 with its rows scaled, as the reference builds it, at `(b, f, j, q)`. -/
theorem scaled5 (b : Fin 32) (f : Fin 4096) (j q : Fin 16) :
    val_main_v53 (F := Ideal) x0 x1 x2 (ix4 b f j q) = scale x1 x2 f j * mat x0 5 b j q := by
  rw [val_main_v53_apply, val_main_v51_apply, val_main_v49_apply, val_main_v52_apply, val_main_v50_apply, val_main_v48_apply,
    val_main_v47_apply]
  have a : idx_main_v49 (idx_main_v51 (ix4 b f j q)) = ix3 (0 : Fin 1) f j :=
    funext fun a => Fin.ext (match a with | ⟨0, _⟩ => rfl | ⟨1, _⟩ => rfl | ⟨2, _⟩ => rfl)
  have c : idx_main_v47 (idx_main_v48 (idx_main_v50 (idx_main_v52 (ix4 b f j q)))) = ix4 (5 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 6 with its rows scaled, as the reference builds it, at `(b, f, j, q)`. -/
theorem scaled6 (b : Fin 32) (f : Fin 4096) (j q : Fin 16) :
    val_main_v61 (F := Ideal) x0 x1 x2 (ix4 b f j q) = scale x1 x2 f j * mat x0 6 b j q := by
  rw [val_main_v61_apply, val_main_v59_apply, val_main_v57_apply, val_main_v60_apply, val_main_v58_apply, val_main_v56_apply,
    val_main_v55_apply]
  have a : idx_main_v57 (idx_main_v59 (ix4 b f j q)) = ix3 (0 : Fin 1) f j :=
    funext fun a => Fin.ext (match a with | ⟨0, _⟩ => rfl | ⟨1, _⟩ => rfl | ⟨2, _⟩ => rfl)
  have c : idx_main_v55 (idx_main_v56 (idx_main_v58 (idx_main_v60 (ix4 b f j q)))) = ix4 (6 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-- Stage matrix 7 with its rows scaled, as the reference builds it, at `(b, f, j, q)`. -/
theorem scaled7 (b : Fin 32) (f : Fin 4096) (j q : Fin 16) :
    val_main_v69 (F := Ideal) x0 x1 x2 (ix4 b f j q) = scale x1 x2 f j * mat x0 7 b j q := by
  rw [val_main_v69_apply, val_main_v67_apply, val_main_v65_apply, val_main_v68_apply, val_main_v66_apply, val_main_v64_apply,
    val_main_v63_apply]
  have a : idx_main_v65 (idx_main_v67 (ix4 b f j q)) = ix3 (0 : Fin 1) f j :=
    funext fun a => Fin.ext (match a with | ⟨0, _⟩ => rfl | ⟨1, _⟩ => rfl | ⟨2, _⟩ => rfl)
  have c : idx_main_v63 (idx_main_v64 (idx_main_v66 (idx_main_v68 (ix4 b f j q)))) = ix4 (7 : Fin 8) b j q := by
    have hb := b.isLt; have hj := j.isLt; have hq := q.isLt
    funext a
    refine Fin.ext ?_
    match a with
    | ⟨0, _⟩ => rfl
    | ⟨1, _⟩ => show ((b.val * 16 + j.val) * 16 + q.val) / 256 % 32 = b.val; omega
    | ⟨2, _⟩ => show ((b.val * 16 + j.val) * 16 + q.val) / 16 % 16 = j.val; omega
    | ⟨3, _⟩ => show ((b.val * 16 + j.val) * 16 + q.val) % 16 = q.val; omega
  rw [a, c, table_apply]
  rfl

/-! ## The products -/

/-- The reference's first array is the cascade's first step. -/
theorem slab_first (b : Fin 32) (f : Fin 4096) :
    slab (val_main_v14 (F := Ideal) x0 x1 x2) b f = first (scale x1 x2 f) (mat x0 0 b) := by
  funext i j
  exact scaled0 x0 x1 x2 b f i j

/-- The reference's product number 1, batch element by batch element and frequency by frequency, is the cascade's step. -/
theorem slab_stage1 (b : Fin 32) (f : Fin 4096) :
    slab (val_main_v22 (F := Ideal) x0 x1 x2) b f = stage (scale x1 x2 f) (slab (val_main_v14 (F := Ideal) x0 x1 x2) b f) (mat x0 1 b) := by
  funext i q
  show val_main_v22 (F := Ideal) x0 x1 x2 (ix4 b f i q)
    = ∑ j : Fin 16, val_main_v14 (F := Ideal) x0 x1 x2 (ix4 b f i j) * (scale x1 x2 f j * mat x0 1 b j q)
  rw [val_main_v22_apply]
  refine Finset.sum_congr rfl fun j _ => ?_
  have l : lidx_main_v22 (ix4 b f i q) j = ix4 b f i j := funext fun a => Fin.ext (match a with | ⟨0, _⟩ => rfl | ⟨1, _⟩ => rfl | ⟨2, _⟩ => rfl | ⟨3, _⟩ => rfl)
  have r : ridx_main_v22 (ix4 b f i q) j = ix4 b f j q := funext fun a => Fin.ext (match a with | ⟨0, _⟩ => rfl | ⟨1, _⟩ => rfl | ⟨2, _⟩ => rfl | ⟨3, _⟩ => rfl)
  rw [l, r, scaled1]

/-- The reference's product number 2, batch element by batch element and frequency by frequency, is the cascade's step. -/
theorem slab_stage2 (b : Fin 32) (f : Fin 4096) :
    slab (val_main_v30 (F := Ideal) x0 x1 x2) b f = stage (scale x1 x2 f) (slab (val_main_v22 (F := Ideal) x0 x1 x2) b f) (mat x0 2 b) := by
  funext i q
  show val_main_v30 (F := Ideal) x0 x1 x2 (ix4 b f i q)
    = ∑ j : Fin 16, val_main_v22 (F := Ideal) x0 x1 x2 (ix4 b f i j) * (scale x1 x2 f j * mat x0 2 b j q)
  rw [val_main_v30_apply]
  refine Finset.sum_congr rfl fun j _ => ?_
  have l : lidx_main_v30 (ix4 b f i q) j = ix4 b f i j := funext fun a => Fin.ext (match a with | ⟨0, _⟩ => rfl | ⟨1, _⟩ => rfl | ⟨2, _⟩ => rfl | ⟨3, _⟩ => rfl)
  have r : ridx_main_v30 (ix4 b f i q) j = ix4 b f j q := funext fun a => Fin.ext (match a with | ⟨0, _⟩ => rfl | ⟨1, _⟩ => rfl | ⟨2, _⟩ => rfl | ⟨3, _⟩ => rfl)
  rw [l, r, scaled2]

/-- The reference's product number 3, batch element by batch element and frequency by frequency, is the cascade's step. -/
theorem slab_stage3 (b : Fin 32) (f : Fin 4096) :
    slab (val_main_v38 (F := Ideal) x0 x1 x2) b f = stage (scale x1 x2 f) (slab (val_main_v30 (F := Ideal) x0 x1 x2) b f) (mat x0 3 b) := by
  funext i q
  show val_main_v38 (F := Ideal) x0 x1 x2 (ix4 b f i q)
    = ∑ j : Fin 16, val_main_v30 (F := Ideal) x0 x1 x2 (ix4 b f i j) * (scale x1 x2 f j * mat x0 3 b j q)
  rw [val_main_v38_apply]
  refine Finset.sum_congr rfl fun j _ => ?_
  have l : lidx_main_v38 (ix4 b f i q) j = ix4 b f i j := funext fun a => Fin.ext (match a with | ⟨0, _⟩ => rfl | ⟨1, _⟩ => rfl | ⟨2, _⟩ => rfl | ⟨3, _⟩ => rfl)
  have r : ridx_main_v38 (ix4 b f i q) j = ix4 b f j q := funext fun a => Fin.ext (match a with | ⟨0, _⟩ => rfl | ⟨1, _⟩ => rfl | ⟨2, _⟩ => rfl | ⟨3, _⟩ => rfl)
  rw [l, r, scaled3]

/-- The reference's product number 4, batch element by batch element and frequency by frequency, is the cascade's step. -/
theorem slab_stage4 (b : Fin 32) (f : Fin 4096) :
    slab (val_main_v46 (F := Ideal) x0 x1 x2) b f = stage (scale x1 x2 f) (slab (val_main_v38 (F := Ideal) x0 x1 x2) b f) (mat x0 4 b) := by
  funext i q
  show val_main_v46 (F := Ideal) x0 x1 x2 (ix4 b f i q)
    = ∑ j : Fin 16, val_main_v38 (F := Ideal) x0 x1 x2 (ix4 b f i j) * (scale x1 x2 f j * mat x0 4 b j q)
  rw [val_main_v46_apply]
  refine Finset.sum_congr rfl fun j _ => ?_
  have l : lidx_main_v46 (ix4 b f i q) j = ix4 b f i j := funext fun a => Fin.ext (match a with | ⟨0, _⟩ => rfl | ⟨1, _⟩ => rfl | ⟨2, _⟩ => rfl | ⟨3, _⟩ => rfl)
  have r : ridx_main_v46 (ix4 b f i q) j = ix4 b f j q := funext fun a => Fin.ext (match a with | ⟨0, _⟩ => rfl | ⟨1, _⟩ => rfl | ⟨2, _⟩ => rfl | ⟨3, _⟩ => rfl)
  rw [l, r, scaled4]

/-- The reference's product number 5, batch element by batch element and frequency by frequency, is the cascade's step. -/
theorem slab_stage5 (b : Fin 32) (f : Fin 4096) :
    slab (val_main_v54 (F := Ideal) x0 x1 x2) b f = stage (scale x1 x2 f) (slab (val_main_v46 (F := Ideal) x0 x1 x2) b f) (mat x0 5 b) := by
  funext i q
  show val_main_v54 (F := Ideal) x0 x1 x2 (ix4 b f i q)
    = ∑ j : Fin 16, val_main_v46 (F := Ideal) x0 x1 x2 (ix4 b f i j) * (scale x1 x2 f j * mat x0 5 b j q)
  rw [val_main_v54_apply]
  refine Finset.sum_congr rfl fun j _ => ?_
  have l : lidx_main_v54 (ix4 b f i q) j = ix4 b f i j := funext fun a => Fin.ext (match a with | ⟨0, _⟩ => rfl | ⟨1, _⟩ => rfl | ⟨2, _⟩ => rfl | ⟨3, _⟩ => rfl)
  have r : ridx_main_v54 (ix4 b f i q) j = ix4 b f j q := funext fun a => Fin.ext (match a with | ⟨0, _⟩ => rfl | ⟨1, _⟩ => rfl | ⟨2, _⟩ => rfl | ⟨3, _⟩ => rfl)
  rw [l, r, scaled5]

/-- The reference's product number 6, batch element by batch element and frequency by frequency, is the cascade's step. -/
theorem slab_stage6 (b : Fin 32) (f : Fin 4096) :
    slab (val_main_v62 (F := Ideal) x0 x1 x2) b f = stage (scale x1 x2 f) (slab (val_main_v54 (F := Ideal) x0 x1 x2) b f) (mat x0 6 b) := by
  funext i q
  show val_main_v62 (F := Ideal) x0 x1 x2 (ix4 b f i q)
    = ∑ j : Fin 16, val_main_v54 (F := Ideal) x0 x1 x2 (ix4 b f i j) * (scale x1 x2 f j * mat x0 6 b j q)
  rw [val_main_v62_apply]
  refine Finset.sum_congr rfl fun j _ => ?_
  have l : lidx_main_v62 (ix4 b f i q) j = ix4 b f i j := funext fun a => Fin.ext (match a with | ⟨0, _⟩ => rfl | ⟨1, _⟩ => rfl | ⟨2, _⟩ => rfl | ⟨3, _⟩ => rfl)
  have r : ridx_main_v62 (ix4 b f i q) j = ix4 b f j q := funext fun a => Fin.ext (match a with | ⟨0, _⟩ => rfl | ⟨1, _⟩ => rfl | ⟨2, _⟩ => rfl | ⟨3, _⟩ => rfl)
  rw [l, r, scaled6]

/-- The reference's product number 7, batch element by batch element and frequency by frequency, is the cascade's step. -/
theorem slab_stage7 (b : Fin 32) (f : Fin 4096) :
    slab (val_main_v70 (F := Ideal) x0 x1 x2) b f = stage (scale x1 x2 f) (slab (val_main_v62 (F := Ideal) x0 x1 x2) b f) (mat x0 7 b) := by
  funext i q
  show val_main_v70 (F := Ideal) x0 x1 x2 (ix4 b f i q)
    = ∑ j : Fin 16, val_main_v62 (F := Ideal) x0 x1 x2 (ix4 b f i j) * (scale x1 x2 f j * mat x0 7 b j q)
  rw [val_main_v70_apply]
  refine Finset.sum_congr rfl fun j _ => ?_
  have l : lidx_main_v70 (ix4 b f i q) j = ix4 b f i j := funext fun a => Fin.ext (match a with | ⟨0, _⟩ => rfl | ⟨1, _⟩ => rfl | ⟨2, _⟩ => rfl | ⟨3, _⟩ => rfl)
  have r : ridx_main_v70 (ix4 b f i q) j = ix4 b f j q := funext fun a => Fin.ext (match a with | ⟨0, _⟩ => rfl | ⟨1, _⟩ => rfl | ⟨2, _⟩ => rfl | ⟨3, _⟩ => rfl)
  rw [l, r, scaled7]

/-! ## The result -/

/-- THE REFERENCE'S RESULT is the cascade, rows scaled first, of the three arguments. -/
theorem result_eq : val_main_v70 (F := Ideal) x0 x1 x2 = G x0 x1 x2 := by
  funext y
  obtain ⟨b, f, i, q, rfl⟩ : ∃ (b : Fin 32) (f : Fin 4096) (i q : Fin 16), y = ix4 b f i q := ⟨y 0, y 1, y 2, y 3, eq_ix4 y⟩
  show slab (val_main_v70 (F := Ideal) x0 x1 x2) b f i q = _
  rw [slab_stage7, slab_stage6, slab_stage5, slab_stage4, slab_stage3, slab_stage2, slab_stage1, slab_first]
  rfl

end Cert.ReferenceIdeal.RefValue

end
-- ==== Proof.lean ====
/-
  The certificate: a cascade of eight 16 x 16 stage matrices with a diagonal scale between consecutive stages, for 32 batch
  elements and 4096 frequencies.

  Both programs compute, for batch element `b` and frequency `f`, the matrix
      W = diag(D_f) · U_0 · diag(D_f) · U_1 · … · diag(D_f) · U_7,      D_f(i) = z_f ^ (-m_i),
  one product at a time from the left. They differ only in how each product `W · diag(D) · U` is bracketed: the
  reference scales the rows of `U` and then multiplies, `Σ_j W i j * (D j * U j q)`; the kernel scales the columns of the
  running product, flattens 512 frequencies into one tall matrix and multiplies by the shared `U`,
  `Σ_j (W i j * D j) * U j q`. The two sums agree term by term because the product of extended reals is associative, so
  the precondition (finite inputs) is never opened.

  The modules: Spec (the cascade and the associativity step), KernelStage (one step of the kernel's body at an entry, and
  the whole payload), KernelValue (from the 256 blocks to the whole result array, and the scale table the host part
  computes before the call), RefValue (the reference's operations read entry by entry), LibMatmulPlain (a plain matrix
  product into zero as a sum). The three frames come from the generated frame proofs and the generated run of the
  reference; no operation was rewritten by the idealization, so that conjunct is trivial.
-/
import proofs.«172804_j21079699489095_2_alg».proof.Defs
import proofs.«172804_j21079699489095_2_alg».proof.Proof.Gen.Kernel
import proofs.«172804_j21079699489095_2_alg».proof.Proof.Gen.Kernel.Skeleton
import proofs.«172804_j21079699489095_2_alg».proof.Proof.Gen.Kernel.Launch
import proofs.«172804_j21079699489095_2_alg».proof.Proof.Gen.Kernel.Points
import proofs.«172804_j21079699489095_2_alg».proof.Proof.Gen.Kernel.Frame
import proofs.«172804_j21079699489095_2_alg».proof.Proof.Gen.KernelIdeal
import proofs.«172804_j21079699489095_2_alg».proof.Proof.Gen.KernelIdeal.Skeleton
import proofs.«172804_j21079699489095_2_alg».proof.Proof.Gen.KernelIdeal.Launch
import proofs.«172804_j21079699489095_2_alg».proof.Proof.Gen.KernelIdeal.Points
import proofs.«172804_j21079699489095_2_alg».proof.Proof.Gen.KernelIdeal.Frame
import proofs.«172804_j21079699489095_2_alg».proof.Proof.Gen.ReferenceIdeal
import proofs.«172804_j21079699489095_2_alg».proof.Proof.Gen.Pre_finite_inputs
import proofs.«172804_j21079699489095_2_alg».proof.Proof.Gen.KernelIdeal.Value
import proofs.«172804_j21079699489095_2_alg».proof.Proof.Gen.ReferenceIdeal.Run
import proofs.«172804_j21079699489095_2_alg».proof.Proof.Gen.ReferenceIdeal.Read
import proofs.«172804_j21079699489095_2_alg».proof.Proof.KernelValue
import proofs.«172804_j21079699489095_2_alg».proof.Proof.RefValue
import Idealize.ShloMosaic.Adequacy
import Idealize.ShloMosaic.Init

noncomputable section

namespace Cert.Proof

open Idealize.ShloMosaic Idealize.SL.Sem

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the cascade of the arguments: the kernel's array block by block
    (columns scaled first, then associativity), the reference's operation by operation (rows scaled first). -/
theorem algebraic : Cert.algebraic_KernelIdeal_ReferenceIdeal := by
  intro m ρ m' ρ' _ hagree
  refine ⟨fun c => Cert.Chain.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.BlockValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v70_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
